-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x32 : Shape := ⟨2, ![8, 32]⟩
abbrev S32 : Shape := ⟨1, ![32]⟩
abbrev S60x32 : Shape := ⟨2, ![60, 32]⟩
abbrev S60 : Shape := ⟨1, ![60]⟩
abbrev S4x60 : Shape := ⟨2, ![4, 60]⟩
abbrev S4 : Shape := ⟨1, ![4]⟩
abbrev S16384x4 : Shape := ⟨2, ![16384, 4]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S60x32 : S_.BroadcastsInDim S60x32 (![] : Fin 0 → Fin S60x32.rank)
  reducesTo_S60x32_S_d0_1 : S60x32.ReducesTo [0, 1] S_
  bcast_S_S60 : S_.BroadcastsInDim S60 (![] : Fin 0 → Fin S60.rank)
  reducesTo_S60_S_d0 : S60.ReducesTo [0] S_
  bcast_S_S4x60 : S_.BroadcastsInDim S4x60 (![] : Fin 0 → Fin S4x60.rank)
  reducesTo_S4x60_S_d0_1 : S4x60.ReducesTo [0, 1] S_
  bcast_S_S4 : S_.BroadcastsInDim S4 (![] : Fin 0 → Fin S4.rank)
  reducesTo_S4_S_d0 : S4.ReducesTo [0] S_
  bcast_S_S16384x4 : S_.BroadcastsInDim S16384x4 (![] : Fin 0 → Fin S16384x4.rank)
  reducesTo_S16384x4_S_d0_1 : S16384x4.ReducesTo [0, 1] S_

variable [Facts]

def fn_part2 {F : FTy → Type} [FloatOps F] (main_arg7 : FVec F S4 .f32) (main_arg8 : FVec F S16384x4 .f32) (main_arg9 : FVec F S16384x4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S16384x4 .f32 := Host.absf main_arg8
  let main_cst_14 : FVec F S_ .f32 := constant S_ .f32 0x7F800000#32
  let main_v40 : FVec F S16384x4 .f32 := broadcastInDim S16384x4 ![] bcast_S_S16384x4 main_cst_14
  let main_v41 : IVec S16384x4 1 := cmpf .olt main_v39 main_v40
  let main_c_15 : IVec S_ 1 := constantI S_ 1 1#1
  let main_v42 : IVec S_ 1 := (fun x v => Host.reduce IntOp.andi x v reducesTo_S16384x4_S_d0_1 h_S_) main_v41 main_c_15
  let main_v43 : IVec S_ 1 := andi main_v38 main_v42
  let main_v44 : FVec F S16384x4 .f32 := Host.absf main_arg9
  let main_cst_16 : FVec F S_ .f32 := constant S_ .f32 0x7F800000#32
  let main_v45 : FVec F S16384x4 .f32 := broadcastInDim S16384x4 ![] bcast_S_S16384x4 main_cst_16
  let main_v46 : IVec S16384x4 1 := cmpf .olt main_v44 main_v45
  let main_c_17 : IVec S_ 1 := constantI S_ 1 1#1
  let main_v47 : IVec S_ 1 := (fun x v => Host.reduce IntOp.andi x v reducesTo_S16384x4_S_d0_1 h_S_) main_v46 main_c_17
  let main_v48 : IVec S_ 1 := andi main_v43 main_v47
  main_v48

def fn_part1 {F : FTy → Type} [FloatOps F] (main_arg4 : FVec F S60x32 .f32) (main_arg5 : FVec F S60 .f32) (main_arg6 : FVec F S4x60 .f32) (main_arg7 : FVec F S4 .f32) (main_arg8 : FVec F S16384x4 .f32) (main_arg9 : FVec F S16384x4 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S60x32 .f32 := Host.absf main_arg4
  let main_cst_6 : FVec F S_ .f32 := constant S_ .f32 0x7F800000#32
  let main_v20 : FVec F S60x32 .f32 := broadcastInDim S60x32 ![] bcast_S_S60x32 main_cst_6
  let main_v21 : IVec S60x32 1 := cmpf .olt main_v19 main_v20
  let main_c_7 : IVec S_ 1 := constantI S_ 1 1#1
  let main_v22 : IVec S_ 1 := (fun x v => Host.reduce IntOp.andi x v reducesTo_S60x32_S_d0_1 h_S_) main_v21 main_c_7
  let main_v23 : IVec S_ 1 := andi main_v18 main_v22
  let main_v24 : FVec F S60 .f32 := Host.absf main_arg5
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S4x60 .f32 := Host.absf main_arg6
  let main_cst_10 : FVec F S_ .f32 := constant S_ .f32 0x7F800000#32
  let main_v30 : FVec F S4x60 .f32 := broadcastInDim S4x60 ![] bcast_S_S4x60 main_cst_10
  let main_v31 : IVec S4x60 1 := cmpf .olt main_v29 main_v30
  let main_c_11 : IVec S_ 1 := constantI S_ 1 1#1
  let main_v32 : IVec S_ 1 := (fun x v => Host.reduce IntOp.andi x v reducesTo_S4x60_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x2048 .f32) (main_arg1 : FVec F S8x32 .f32) (main_arg2 : FVec F S32 .f32) (main_arg3 : FVec F S32 .f32) (main_arg4 : FVec F S60x32 .f32) (main_arg5 : FVec F S60 .f32) (main_arg6 : FVec F S4x60 .f32) (main_arg7 : FVec F S4 .f32) (main_arg8 : FVec F S16384x4 .f32) (main_arg9 : FVec F S16384x4 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x32 .f32 := Host.absf main_arg1
  let main_cst_0 : FVec F S_ .f32 := constant S_ .f32 0x7F800000#32
  let main_v5 : FVec F S8x32 .f32 := broadcastInDim S8x32 ![] bcast_S_S8x32 main_cst_0
  let main_v6 : IVec S8x32 1 := cmpf .olt main_v4 main_v5
  let main_c_1 : IVec S_ 1 := constantI S_ 1 1#1
  let main_v7 : IVec S_ 1 := (fun x v => Host.reduce IntOp.andi x v reducesTo_S8x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S8x2048x2048 : Shape := ⟨3, ![8, 2048, 2048]⟩
abbrev S8x32 : Shape := ⟨2, ![8, 32]⟩
abbrev S32 : Shape := ⟨1, ![32]⟩
abbrev S60x32 : Shape := ⟨2, ![60, 32]⟩
abbrev S60 : Shape := ⟨1, ![60]⟩
abbrev S4x60 : Shape := ⟨2, ![4, 60]⟩
abbrev S4 : Shape := ⟨1, ![4]⟩
abbrev S16384x4 : Shape := ⟨2, ![16384, 4]⟩
abbrev S_ : Shape := ⟨0, ![]⟩
abbrev S8 : Shape := ⟨1, ![8]⟩
abbrev S8x1 : Shape := ⟨2, ![8, 1]⟩
abbrev S1x32 : Shape := ⟨2, ![1, 32]⟩
abbrev S32x60 : Shape := ⟨2, ![32, 60]⟩
abbrev S8x60 : Shape := ⟨2, ![8, 60]⟩
abbrev S1x60 : Shape := ⟨2, ![1, 60]⟩
abbrev S60x4 : Shape := ⟨2, ![60, 4]⟩
abbrev S8x4 : Shape := ⟨2, ![8, 4]⟩
abbrev S1x4 : Shape := ⟨2, ![1, 4]⟩
abbrev S4x16384 : Shape := ⟨2, ![4, 16384]⟩
abbrev S8x16384 : Shape := ⟨2, ![8, 16384]⟩
abbrev S8x8x2048 : Shape := ⟨3, ![8, 8, 2048]⟩
abbrev S1x1024x2048 : Shape := ⟨3, ![1, 1024, 2048]⟩
abbrev S1x8x2048 : Shape := ⟨3, ![1, 8, 2048]⟩
abbrev S8x2048 : Shape := ⟨2, ![8, 2048]⟩
abbrev S1x512x2048 : Shape := ⟨3, ![1, 512, 2048]⟩
abbrev S512x2048 : Shape := ⟨2, ![512, 2048]⟩
abbrev S512x8 : Shape := ⟨2, ![512, 8]⟩

abbrev nBuf : Space → Nat
  | .hbm => 76
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x32, .f32⟩
  | .hbm, ⟨2, _⟩ => ⟨S32, .f32⟩
  | .hbm, ⟨3, _⟩ => ⟨S32, .f32⟩
  | .hbm, ⟨4, _⟩ => ⟨S60x32, .f32⟩
  | .hbm, ⟨5, _⟩ => ⟨S60, .f32⟩
  | .hbm, ⟨6, _⟩ => ⟨S4x60, .f32⟩
  | .hbm, ⟨7, _⟩ => ⟨S4, .f32⟩
  | .hbm, ⟨8, _⟩ => ⟨S16384x4, .f32⟩
  | .hbm, ⟨9, _⟩ => ⟨S16384x4, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x32, .f32⟩
  | .hbm, ⟨17, _⟩ => ⟨S8x32, .f32⟩
  | .hbm, ⟨18, _⟩ => ⟨S8x32, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x32, .f32⟩
  | .hbm, ⟨26, _⟩ => ⟨S8x32, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S8x32, .f32⟩
  | .hbm, ⟨32, _⟩ => ⟨S8x32, .f32⟩
  | .hbm, ⟨33, _⟩ => ⟨S1x32, .f32⟩
  | .hbm, ⟨34, _⟩ => ⟨S8x32, .f32⟩
  | .hbm, ⟨35, _⟩ => ⟨S8x32, .f32⟩
  | .hbm, ⟨36, _⟩ => ⟨S1x32, .f32⟩
  | .hbm, ⟨37, _⟩ => ⟨S8x32, .f32⟩
  | .hbm, ⟨38, _⟩ => ⟨S8x32, .f32⟩
  | .hbm, ⟨39, _⟩ => ⟨S32x60, .f32⟩
  | .hbm, ⟨40, _⟩ => ⟨S8x60, .f32⟩
  | .hbm, ⟨41, _⟩ => ⟨S1x60, .f32⟩
  | .hbm, ⟨42, _⟩ => ⟨S8x60, .f32⟩
  | .hbm, ⟨43, _⟩ => ⟨S8x60, .f32⟩
  | .hbm, ⟨44, _⟩ => ⟨S_, .f32⟩
  | .hbm, ⟨45, _⟩ => ⟨S8x60, .f32⟩
  | .hbm, ⟨46, _⟩ => ⟨S8x60, .f32⟩
  | .hbm, ⟨47, _⟩ => ⟨S60x4, .f32⟩
  | .hbm, ⟨48, _⟩ => ⟨S8x4, .f32⟩
  | .hbm, ⟨49, _⟩ => ⟨S1x4, .f32⟩
  | .hbm, ⟨50, _⟩ => ⟨S8x4, .f32⟩
  | .hbm, ⟨51, _⟩ => ⟨S8x4, .f32⟩
  | .hbm, ⟨52, _⟩ => ⟨S_, .f32⟩
  | .hbm, ⟨53, _⟩ => ⟨S8x4, .f32⟩
  | .hbm, ⟨54, _⟩ => ⟨S8x4, .f32⟩
  | .hbm, ⟨55, _⟩ => ⟨S_, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8x1, .f32⟩
  | .hbm, ⟨61, _⟩ => ⟨S8x4, .f32⟩
  | .hbm, ⟨62, _⟩ => ⟨S8x4, .f32⟩
  | .hbm, ⟨63, _⟩ => ⟨S8x4, .f32⟩
  | .hbm, ⟨64, _⟩ => ⟨S_, .f32⟩
  | .hbm, ⟨65, _⟩ => ⟨S8, .f32⟩
  | .hbm, ⟨66, _⟩ => ⟨S8x1, .f32⟩
  | .hbm, ⟨67, _⟩ => ⟨S8x4, .f32⟩
  | .hbm, ⟨68, _⟩ => ⟨S8x4, .f32⟩
  | .hbm, ⟨69, _⟩ => ⟨S4x16384, .f32⟩
  | .hbm, ⟨70, _⟩ => ⟨S8x16384, .f32⟩
  | .hbm, ⟨71, _⟩ => ⟨S8x8x2048, .f32⟩
  | .hbm, ⟨72, _⟩ => ⟨S4x16384, .f32⟩
  | .hbm, ⟨73, _⟩ => ⟨S8x16384, .f32⟩
  | .hbm, ⟨74, _⟩ => ⟨S8x8x2048, .f32⟩
  | .hbm, ⟨75, _⟩ => ⟨S8x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x1024x2048, .f32⟩
  | .local _ .vmem, ⟨7, _⟩ => ⟨S1x1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_cst_4 : Ref sig .tc := ⟨.hbm, 52, rfl⟩
abbrev main_call0_v35 : Ref sig .tc := ⟨.hbm, 53, rfl⟩
abbrev main_call0_v36 : Ref sig .tc := ⟨.hbm, 54, rfl⟩
abbrev main_call0_cst_5 : Ref sig .tc := ⟨.hbm, 55, rfl⟩
abbrev main_call0_v37 : Ref sig .tc := ⟨.hbm, 56, rfl⟩
abbrev main_call0_cst_6 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_cst_7 : Ref sig .tc := ⟨.hbm, 64, rfl⟩
abbrev main_call0_v44 : Ref sig .tc := ⟨.hbm, 65, rfl⟩
abbrev main_call0_v45 : Ref sig .tc := ⟨.hbm, 66, rfl⟩
abbrev main_call0_v46 : Ref sig .tc := ⟨.hbm, 67, rfl⟩
abbrev main_call0_v47 : Ref sig .tc := ⟨.hbm, 68, rfl⟩
abbrev main_call0_v48 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_v53 : Ref sig .tc := ⟨.hbm, 74, rfl⟩
abbrev main_v0 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  let c512_i32 : BitVec 32 := 512#32
  let v6 : BitVec 32 := Scalar.muli c0_i32 c512_i32
  v6
def k0_off1 (c0_i32 : BitVec 32) : Fin 3 → Nat :=
  let c0_5 : Index := 0#32
  let c512_i32 : BitVec 32 := 512#32
  let v6 : BitVec 32 := Scalar.muli c0_i32 c512_i32
  let v7 : BitVec 32 := v6
  let v8 : Index := Scalar.indexCast v7
  let c0_6 : Index := 0#32
  ![0, v8.toNat, 0]
def k0_mult2 : BitVec 32 :=
  let c1_i32 : BitVec 32 := 1#32
  let c512_i32_11 : BitVec 32 := 512#32
  let v21 : BitVec 32 := Scalar.muli c1_i32 c512_i32_11
  v21
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8x32_S8_d1 : S8x32.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x32_0_1 : S8x1.BroadcastsInDim S8x32 (![0, 1] : Fin 2 → Fin S8x32.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  transposes_S60x32_S32x60_1_0 : S60x32.Transposes [1, 0] S32x60
  bcast_S60_S1x60_1 : S60.BroadcastsInDim S1x60 (![1] : Fin 1 → Fin S1x60.rank)
  bcast_S1x60_S8x60_0_1 : S1x60.BroadcastsInDim S8x60 (![0, 1] : Fin 2 → Fin S8x60.rank)
  bcast_S_S8x60 : S_.BroadcastsInDim S8x60 (![] : Fin 0 → Fin S8x60.rank)
  transposes_S4x60_S60x4_1_0 : S4x60.Transposes [1, 0] S60x4
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  bcast_S_S8x4 : S_.BroadcastsInDim S8x4 (![] : Fin 0 → Fin S8x4.rank)
  reducesTo_S8x4_S8_d1 : S8x4.ReducesTo [1] S8
  bcast_S_S8 : S_.BroadcastsInDim S8 (![] : Fin 0 → Fin S8.rank)
  bcast_S8x1_S8x4_0_1 : S8x1.BroadcastsInDim S8x4 (![0, 1] : Fin 2 → Fin S8x4.rank)
  transposes_S16384x4_S4x16384_1_0 : S16384x4.Transposes [1, 0] S4x16384
  shapeCasts_S8x16384_S8x8x2048 : S8x16384.ShapeCasts S8x8x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  bitsLt_bf16_f32 : FTy.bits .bf16 < FTy.bits .f32
  h_S1x512x2048 : 0 < S1x512x2048.numel
  shapeCasts_S1x512x2048_S512x2048 : S1x512x2048.ShapeCasts S512x2048
  shapeCasts_S512x2048_S1x512x2048 : S512x2048.ShapeCasts S1x512x2048
  dot_S8x32_S32x60_S8x60_1_0_0_1_n_n_wf : DotDims.WF S8x32 S32x60 S8x60 [1] [0] [0] [1] [] []
  dot_S8x60_S60x4_S8x4_1_0_0_1_n_n_wf : DotDims.WF S8x60 S60x4 S8x4 [1] [0] [0] [1] [] []
  dot_S8x4_S4x16384_S8x16384_1_0_0_1_n_n_wf : DotDims.WF S8x4 S4x16384 S8x16384 [1] [0] [0] [1] [] []
  dot_S512x2048_S8x2048_S512x8_1_1_0_0_n_n_wf : DotDims.WF S512x2048 S8x2048 S512x8 [1] [1] [0] [0] [] []
  dot_S512x8_S8x2048_S512x2048_1_0_0_1_n_n_wf : DotDims.WF S512x8 S8x2048 S512x2048 [1] [0] [0] [1] [] []
  hrank0 : 0 < grid0.rank
  k0_mult1_dvd : 512 ∣ k0_mult1.toNat
  k0_off1_inb : ∀ (r : Fin 2), ∀ a, (k0_off1 (BitVec.ofNat 32 r.val)) a + S1x512x2048.size a ≤ S1x1024x2048.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S8x8x2048.size a
  hwx0_1 : ∀ i : grid0.Coords, EltTy.bits .f32 = 32 ∨ (Rect.block (s := S8x8x2048) S1x8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x2048.size a ≤ S8x8x2048.size a
  hwx0_2 : ∀ i : grid0.Coords, EltTy.bits .f32 = 32 ∨ (Rect.block (s := S8x8x2048) S1x8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x2048x2048.size a
  hwx0_3 : ∀ i : grid0.Coords, EltTy.bits .f32 = 32 ∨ (Rect.block (s := S8x2048x2048) S1x1024x2048.size (cc0_transform_3 i) (hinb0_3 i)).WholeWords (EltTy.packing .f32)

variable [Facts₀]

def dot_S8x32_S32x60_S8x60_1_0_0_1_n_n : DotDims S8x32 S32x60 S8x60 where
  lhsContracting := [1]
  rhsContracting := [0]
  lhsNonContracting := [0]
  rhsNonContracting := [1]
  lhsBatch := []
  rhsBatch := []
  wf := dot_S8x32_S32x60_S8x60_1_0_0_1_n_n_wf
def dot_S8x60_S60x4_S8x4_1_0_0_1_n_n : DotDims S8x60 S60x4 S8x4 where
  lhsContracting := [1]
  rhsContracting := [0]
  lhsNonContracting := [0]
  rhsNonContracting := [1]
  lhsBatch := []
  rhsBatch := []
  wf := dot_S8x60_S60x4_S8x4_1_0_0_1_n_n_wf
def dot_S8x4_S4x16384_S8x16384_1_0_0_1_n_n : DotDims S8x4 S4x16384 S8x16384 where
  lhsContracting := [1]
  rhsContracting := [0]
  lhsNonContracting := [0]
  rhsNonContracting := [1]
  lhsBatch := []
  rhsBatch := []
  wf := dot_S8x4_S4x16384_S8x16384_1_0_0_1_n_n_wf
def dot_S512x2048_S8x2048_S512x8_1_1_0_0_n_n : DotDims S512x2048 S8x2048 S512x8 where
  lhsContracting := [1]
  rhsContracting := [1]
  lhsNonContracting := [0]
  rhsNonContracting := [0]
  lhsBatch := []
  rhsBatch := []
  wf := dot_S512x2048_S8x2048_S512x8_1_1_0_0_n_n_wf
def dot_S512x8_S8x2048_S512x2048_1_0_0_1_n_n : DotDims S512x8 S8x2048 S512x2048 where
  lhsContracting := [1]
  rhsContracting := [0]
  lhsNonContracting := [0]
  rhsNonContracting := [1]
  lhsBatch := []
  rhsBatch := []
  wf := dot_S512x8_S8x2048_S512x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v50) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v53) S1x8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x32 : Shape := ⟨2, ![8, 32]⟩
abbrev S32 : Shape := ⟨1, ![32]⟩
abbrev S60x32 : Shape := ⟨2, ![60, 32]⟩
abbrev S60 : Shape := ⟨1, ![60]⟩
abbrev S4x60 : Shape := ⟨2, ![4, 60]⟩
abbrev S4 : Shape := ⟨1, ![4]⟩
abbrev S16384x4 : Shape := ⟨2, ![16384, 4]⟩
abbrev S_ : Shape := ⟨0, ![]⟩
abbrev S8 : Shape := ⟨1, ![8]⟩
abbrev S8x1 : Shape := ⟨2, ![8, 1]⟩
abbrev S1x32 : Shape := ⟨2, ![1, 32]⟩
abbrev S32x60 : Shape := ⟨2, ![32, 60]⟩
abbrev S8x60 : Shape := ⟨2, ![8, 60]⟩
abbrev S1x60 : Shape := ⟨2, ![1, 60]⟩
abbrev S60x4 : Shape := ⟨2, ![60, 4]⟩
abbrev S8x4 : Shape := ⟨2, ![8, 4]⟩
abbrev S1x4 : Shape := ⟨2, ![1, 4]⟩
abbrev S4x16384 : Shape := ⟨2, ![4, 16384]⟩
abbrev S8x16384 : Shape := ⟨2, ![8, 16384]⟩
abbrev S8x8x2048 : Shape := ⟨3, ![8, 8, 2048]⟩
abbrev S8x2048x8 : Shape := ⟨3, ![8, 2048, 8]⟩

abbrev nBuf : Space → Nat
  | .hbm => 80
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x32, .f32⟩
  | .hbm, ⟨2, _⟩ => ⟨S32, .f32⟩
  | .hbm, ⟨3, _⟩ => ⟨S32, .f32⟩
  | .hbm, ⟨4, _⟩ => ⟨S60x32, .f32⟩
  | .hbm, ⟨5, _⟩ => ⟨S60, .f32⟩
  | .hbm, ⟨6, _⟩ => ⟨S4x60, .f32⟩
  | .hbm, ⟨7, _⟩ => ⟨S4, .f32⟩
  | .hbm, ⟨8, _⟩ => ⟨S16384x4, .f32⟩
  | .hbm, ⟨9, _⟩ => ⟨S16384x4, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x32, .f32⟩
  | .hbm, ⟨17, _⟩ => ⟨S8x32, .f32⟩
  | .hbm, ⟨18, _⟩ => ⟨S8x32, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x32, .f32⟩
  | .hbm, ⟨26, _⟩ => ⟨S8x32, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S8x32, .f32⟩
  | .hbm, ⟨32, _⟩ => ⟨S8x32, .f32⟩
  | .hbm, ⟨33, _⟩ => ⟨S1x32, .f32⟩
  | .hbm, ⟨34, _⟩ => ⟨S8x32, .f32⟩
  | .hbm, ⟨35, _⟩ => ⟨S8x32, .f32⟩
  | .hbm, ⟨36, _⟩ => ⟨S1x32, .f32⟩
  | .hbm, ⟨37, _⟩ => ⟨S8x32, .f32⟩
  | .hbm, ⟨38, _⟩ => ⟨S8x32, .f32⟩
  | .hbm, ⟨39, _⟩ => ⟨S32x60, .f32⟩
  | .hbm, ⟨40, _⟩ => ⟨S8x60, .f32⟩
  | .hbm, ⟨41, _⟩ => ⟨S1x60, .f32⟩
  | .hbm, ⟨42, _⟩ => ⟨S8x60, .f32⟩
  | .hbm, ⟨43, _⟩ => ⟨S8x60, .f32⟩
  | .hbm, ⟨44, _⟩ => ⟨S_, .f32⟩
  | .hbm, ⟨45, _⟩ => ⟨S8x60, .f32⟩
  | .hbm, ⟨46, _⟩ => ⟨S8x60, .f32⟩
  | .hbm, ⟨47, _⟩ => ⟨S60x4, .f32⟩
  | .hbm, ⟨48, _⟩ => ⟨S8x4, .f32⟩
  | .hbm, ⟨49, _⟩ => ⟨S1x4, .f32⟩
  | .hbm, ⟨50, _⟩ => ⟨S8x4, .f32⟩
  | .hbm, ⟨51, _⟩ => ⟨S8x4, .f32⟩
  | .hbm, ⟨52, _⟩ => ⟨S_, .f32⟩
  | .hbm, ⟨53, _⟩ => ⟨S8x4, .f32⟩
  | .hbm, ⟨54, _⟩ => ⟨S8x4, .f32⟩
  | .hbm, ⟨55, _⟩ => ⟨S_, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8x1, .f32⟩
  | .hbm, ⟨61, _⟩ => ⟨S8x4, .f32⟩
  | .hbm, ⟨62, _⟩ => ⟨S8x4, .f32⟩
  | .hbm, ⟨63, _⟩ => ⟨S8x4, .f32⟩
  | .hbm, ⟨64, _⟩ => ⟨S_, .f32⟩
  | .hbm, ⟨65, _⟩ => ⟨S8, .f32⟩
  | .hbm, ⟨66, _⟩ => ⟨S8x1, .f32⟩
  | .hbm, ⟨67, _⟩ => ⟨S8x4, .f32⟩
  | .hbm, ⟨68, _⟩ => ⟨S8x4, .f32⟩
  | .hbm, ⟨69, _⟩ => ⟨S4x16384, .f32⟩
  | .hbm, ⟨70, _⟩ => ⟨S8x16384, .f32⟩
  | .hbm, ⟨71, _⟩ => ⟨S8x8x2048, .f32⟩
  | .hbm, ⟨72, _⟩ => ⟨S4x16384, .f32⟩
  | .hbm, ⟨73, _⟩ => ⟨S8x16384, .f32⟩
  | .hbm, ⟨74, _⟩ => ⟨S8x8x2048, .f32⟩
  | .hbm, ⟨75, _⟩ => ⟨S8x2048x8, .f32⟩
  | .hbm, ⟨76, _⟩ => ⟨S8x2048x2048, .f32⟩
  | .hbm, ⟨77, _⟩ => ⟨S_, .f32⟩
  | .hbm, ⟨78, _⟩ => ⟨S8x2048x2048, .f32⟩
  | .hbm, ⟨79, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  reducesTo_S8x32_S8_d1 : S8x32.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x32_0_1 : S8x1.BroadcastsInDim S8x32 (![0, 1] : Fin 2 → Fin S8x32.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  transposes_S60x32_S32x60_1_0 : S60x32.Transposes [1, 0] S32x60
  bcast_S60_S1x60_1 : S60.BroadcastsInDim S1x60 (![1] : Fin 1 → Fin S1x60.rank)
  bcast_S1x60_S8x60_0_1 : S1x60.BroadcastsInDim S8x60 (![0, 1] : Fin 2 → Fin S8x60.rank)
  bcast_S_S8x60 : S_.BroadcastsInDim S8x60 (![] : Fin 0 → Fin S8x60.rank)
  transposes_S4x60_S60x4_1_0 : S4x60.Transposes [1, 0] S60x4
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  bcast_S_S8x4 : S_.BroadcastsInDim S8x4 (![] : Fin 0 → Fin S8x4.rank)
  reducesTo_S8x4_S8_d1 : S8x4.ReducesTo [1] S8
  bcast_S_S8 : S_.BroadcastsInDim S8 (![] : Fin 0 → Fin S8.rank)
  bcast_S8x1_S8x4_0_1 : S8x1.BroadcastsInDim S8x4 (![0, 1] : Fin 2 → Fin S8x4.rank)
  transposes_S16384x4_S4x16384_1_0 : S16384x4.Transposes [1, 0] S4x16384
  shapeCasts_S8x16384_S8x8x2048 : S8x16384.ShapeCasts S8x8x2048
  bcast_S_S8x2048x2048 : S_.BroadcastsInDim S8x2048x2048 (![] : Fin 0 → Fin S8x2048x2048.rank)
  dot_S8x32_S32x60_S8x60_1_0_0_1_n_n_wf : DotDims.WF S8x32 S32x60 S8x60 [1] [0] [0] [1] [] []
  dot_S8x60_S60x4_S8x4_1_0_0_1_n_n_wf : DotDims.WF S8x60 S60x4 S8x4 [1] [0] [0] [1] [] []
  dot_S8x4_S4x16384_S8x16384_1_0_0_1_n_n_wf : DotDims.WF S8x4 S4x16384 S8x16384 [1] [0] [0] [1] [] []
  dot_S8x2048x2048_S8x8x2048_S8x2048x8_2_2_1_1_0_0_wf : DotDims.WF S8x2048x2048 S8x8x2048 S8x2048x8 [2] [2] [1] [1] [0] [0]
  dot_S8x2048x8_S8x8x2048_S8x2048x2048_2_1_1_2_0_0_wf : DotDims.WF S8x2048x8 S8x8x2048 S8x2048x2048 [2] [1] [1] [2] [0] [0]

variable [Facts₀]

def dot_S8x32_S32x60_S8x60_1_0_0_1_n_n : DotDims S8x32 S32x60 S8x60 where
  lhsContracting := [1]
  rhsContracting := [0]
  lhsNonContracting := [0]
  rhsNonContracting := [1]
  lhsBatch := []
  rhsBatch := []
  wf := dot_S8x32_S32x60_S8x60_1_0_0_1_n_n_wf
def dot_S8x60_S60x4_S8x4_1_0_0_1_n_n : DotDims S8x60 S60x4 S8x4 where
  lhsContracting := [1]
  rhsContracting := [0]
  lhsNonContracting := [0]
  rhsNonContracting := [1]
  lhsBatch := []
  rhsBatch := []
  wf := dot_S8x60_S60x4_S8x4_1_0_0_1_n_n_wf
def dot_S8x4_S4x16384_S8x16384_1_0_0_1_n_n : DotDims S8x4 S4x16384 S8x16384 where
  lhsContracting := [1]
  rhsContracting := [0]
  lhsNonContracting := [0]
  rhsNonContracting := [1]
  lhsBatch := []
  rhsBatch := []
  wf := dot_S8x4_S4x16384_S8x16384_1_0_0_1_n_n_wf
def dot_S8x2048x2048_S8x8x2048_S8x2048x8_2_2_1_1_0_0 : DotDims S8x2048x2048 S8x8x2048 S8x2048x8 where
  lhsContracting := [2]
  rhsContracting := [2]
  lhsNonContracting := [1]
  rhsNonContracting := [1]
  lhsBatch := [0]
  rhsBatch := [0]
  wf := dot_S8x2048x2048_S8x8x2048_S8x2048x8_2_2_1_1_0_0_wf
def dot_S8x2048x8_S8x8x2048_S8x2048x2048_2_1_1_2_0_0 : DotDims S8x2048x8 S8x8x2048 S8x2048x2048 where
  lhsContracting := [2]
  rhsContracting := [1]
  lhsNonContracting := [1]
  rhsNonContracting := [2]
  lhsBatch := [0]
  rhsBatch := [0]
  wf := dot_S8x2048x8_S8x8x2048_S8x2048x2048_2_1_1_2_0_0_wf

class Facts : Prop extends Facts₀ where

variable [Facts]
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.BodyHalf.lean ====
/- One half of a block, at an index.

   The body handles the 1024 rows of a block as two halves of 512 rows. For a half `v` (512 rows of `x`) and the
   batch's two factors `a, b` (eight rows of 2048 each) it forms the projections `P = v · aᵀ` (512 × 8, contracting the
   2048 columns) and then `P · b` (512 × 2048, contracting the eight directions), both into zero accumulators, and
   doubles the result. Over the extended reals the roundings to bf16 are the identity and each product is the plain
   sum over its contracted axis, so at row `s` and column `o` the half holds
       (∑ r, (∑ d, v[s, d] · a[r, d]) · b[r, o]) · 2. -/
import proofs.«131016_j67353677136187_2_alg».proof.Proof.Gen.KernelIdeal.Skeleton
import proofs.«131016_j67353677136187_2_alg».proof.Proof.LibMatmul
import Idealize.ShloMosaic.Lib.ValueIdx
import Idealize.ShloMosaic.Lib.ValueLayout

noncomputable section

open scoped BigOperators

namespace Cert.KernelIdeal.Half

open Cert.KernelIdeal Cert.KernelIdeal.Gen Idealize.ShloMosaic Idealize.ShloMosaic.ValueIdx

/-- The first product's dimension numbers: a row of the half against a row of `a`, along the last axis of both. -/
abbrev dXA : DotDims S512x2048 S8x2048 S512x8 := dot_S512x2048_S8x2048_S512x8_1_1_0_0_n_n
/-- The second product's: a row of projections against a column of `b`. -/
abbrev dPB : DotDims S512x8 S8x2048 S512x2048 := dot_S512x8_S8x2048_S512x2048_1_0_0_1_n_n

/-! ## Where the two products read their operands -/

theorem dXA_lhs_0 (j : S512x8.Idx) (q : dXA.contr.Idx) : (dXA.lhsIdx j q 0).val = (j 0).val := by
  unfold DotDims.lhsIdx
  rw [dif_neg (show ¬(0 : Fin S512x2048.rank) ∈ dXA.lhsBatch by decide), dif_pos (show (0 : Fin S512x2048.rank) ∈ dXA.lhsNonContracting by decide)]
  rfl
theorem dXA_lhs_1 (j : S512x8.Idx) (q : dXA.contr.Idx) : (dXA.lhsIdx j q 1).val = (q ⟨0, by decide⟩).val :=
  dXA.lhsIdx_val_of_single rfl j q
theorem dXA_rhs_0 (j : S512x8.Idx) (q : dXA.contr.Idx) : (dXA.rhsIdx j q 0).val = (j 1).val := by
  unfold DotDims.rhsIdx
  rw [dif_neg (show ¬(0 : Fin S8x2048.rank) ∈ dXA.rhsBatch by decide), dif_pos (show (0 : Fin S8x2048.rank) ∈ dXA.rhsNonContracting by decide)]
  rfl
theorem dXA_rhs_1 (j : S512x8.Idx) (q : dXA.contr.Idx) : (dXA.rhsIdx j q 1).val = (q ⟨0, by decide⟩).val :=
  dXA.rhsIdx_val_of_single rfl j q

theorem dPB_lhs_0 (j : S512x2048.Idx) (q : dPB.contr.Idx) : (dPB.lhsIdx j q 0).val = (j 0).val := by
  unfold DotDims.lhsIdx
  rw [dif_neg (show ¬(0 : Fin S512x8.rank) ∈ dPB.lhsBatch by decide), dif_pos (show (0 : Fin S512x8.rank) ∈ dPB.lhsNonContracting by decide)]
  rfl
theorem dPB_lhs_1 (j : S512x2048.Idx) (q : dPB.contr.Idx) : (dPB.lhsIdx j q 1).val = (q ⟨0, by decide⟩).val :=
  dPB.lhsIdx_val_of_single rfl j q
theorem dPB_rhs_0 (j : S512x2048.Idx) (q : dPB.contr.Idx) : (dPB.rhsIdx j q 0).val = (q ⟨0, by decide⟩).val :=
  dPB.rhsIdx_val_of_single rfl j q
theorem dPB_rhs_1 (j : S512x2048.Idx) (q : dPB.contr.Idx) : (dPB.rhsIdx j q 1).val = (j 1).val := by
  unfold DotDims.rhsIdx
  rw [dif_neg (show ¬(1 : Fin S8x2048.rank) ∈ dPB.rhsBatch by decide), dif_pos (show (1 : Fin S8x2048.rank) ∈ dPB.rhsNonContracting by decide)]
  rfl

/-- The first product at `(s, r)`: row `s` of the left operand against row `r` of the right one. -/
theorem xa_apply (l : FVec Ideal S512x2048 .bf16) (a : FVec Ideal S8x2048 .bf16) (s : Fin 512) (r : Fin 8) :
    FloatOps.matmul dXA none l a (constant S512x8 .f32 0x00000000#32) (ix2 s r)
      = ∑ d : Fin 2048, l (ix2 s d) * a (ix2 r d) :=
  Cert.LibMatmul.matmul_zero_sum1 dXA none 2048 rfl rfl l a (ix2 s r) (fun d => ix2 s d) (fun d => ix2 r d)
    (fun q d hq => funext fun ax => Fin.ext (by
      match ax with
      | ⟨0, _⟩ => exact dXA_lhs_0 _ _
      | ⟨1, _⟩ => exact (dXA_lhs_1 _ _).trans hq))
    (fun q d hq => funext fun ax => Fin.ext (by
      match ax with
      | ⟨0, _⟩ => exact dXA_rhs_0 _ _
      | ⟨1, _⟩ => exact (dXA_rhs_1 _ _).trans hq))

/-- The second product at `(s, o)`: row `s` of the projections against column `o` of the right operand. -/
theorem pb_apply (p : FVec Ideal S512x8 .bf16) (b : FVec Ideal S8x2048 .bf16) (s : Fin 512) (o : Fin 2048) :
    FloatOps.matmul dPB none p b (constant S512x2048 .f32 0x00000000#32) (ix2 s o)
      = ∑ r : Fin 8, p (ix2 s r) * b (ix2 r o) :=
  Cert.LibMatmul.matmul_zero_sum1 dPB none 8 rfl rfl p b (ix2 s o) (fun r => ix2 s r) (fun r => ix2 r o)
    (fun q r hq => funext fun ax => Fin.ext (by
      match ax with
      | ⟨0, _⟩ => exact dPB_lhs_0 _ _
      | ⟨1, _⟩ => exact (dPB_lhs_1 _ _).trans hq))
    (fun q r hq => funext fun ax => Fin.ext (by
      match ax with
      | ⟨0, _⟩ => exact (dPB_rhs_0 _ _).trans hq
      | ⟨1, _⟩ => exact dPB_rhs_1 _ _))

/-! ## The half at an index -/

/-- The doubling factor, 2.0 as the extended real its pattern denotes. -/
abbrev two : EReal := Ideal.ofBits .f32 0x40000000#32

/-- What a half holds at row `s`, column `o`, from the 512 rows `v` it read and the two factors `a`, `b`. -/
def half (a b : Vec Ideal S1x8x2048 .f32) (v : Vec Ideal S1x512x2048 .f32) (s : Fin 512) (o : Fin 2048) : EReal :=
  (∑ r : Fin 8, (∑ d : Fin 2048, v (ix3 (0 : Fin 1) s d) * a (ix3 (0 : Fin 1) r d)) * b (ix3 (0 : Fin 1) r o)) * two

/-- A factor as the body uses it: its leading unit axis dropped, rounded to bf16 (the identity here). -/
theorem pay2_apply (a : Vec Ideal S1x8x2048 .f32) (r : Fin 8) (d : Fin 2048) :
    k0_pay2 (F := Ideal) a (ix2 r d) = a (ix3 (0 : Fin 1) r d) :=
  shapeCast_1ab_ab_apply a shapeCasts_S1x8x2048_S8x2048 r d
theorem pay3_apply (b : Vec Ideal S1x8x2048 .f32) (r : Fin 8) (o : Fin 2048) :
    k0_pay3 (F := Ideal) b (ix2 r o) = b (ix3 (0 : Fin 1) r o) :=
  shapeCast_1ab_ab_apply b shapeCasts_S1x8x2048_S8x2048 r o

/-- The second half's value (kept as a 512 × 2048 matrix) at `(s, o)`. -/
theorem pay5_apply (a b : Vec Ideal S1x8x2048 .f32) (v : Vec Ideal S1x512x2048 .f32) (s : Fin 512) (o : Fin 2048) :
    k0_pay5 (F := Ideal) a b v (ix2 s o) = half a b v s o := by
  unfold k0_pay5 half
  refine (mulf_apply _ _ (ix2 s o)).trans ?_
  refine congrArg (· * two) ?_
  refine (pb_apply _ _ s o).trans ?_
  refine Finset.sum_congr rfl fun r _ => ?_
  refine congrArg₂ (· * ·) ?_ (pay3_apply b r o)
  refine (xa_apply _ _ s r).trans ?_
  refine Finset.sum_congr rfl fun d _ => ?_
  exact congrArg₂ (· * ·) (shapeCast_1ab_ab_apply v shapeCasts_S1x512x2048_S512x2048 s d) (pay2_apply a r d)

/-- The first half's stored value (with its leading unit axis) at `(0, s, o)`. -/
theorem pay4_apply (a b : Vec Ideal S1x8x2048 .f32) (v : Vec Ideal S1x512x2048 .f32) (u : Fin 1) (s : Fin 512) (o : Fin 2048) :
    k0_pay4 (F := Ideal) a b v (ix3 u s o) = half a b v s o := by
  unfold k0_pay4 half
  refine (shapeCast_ab_1ab_apply _ shapeCasts_S512x2048_S1x512x2048 u s o).trans ?_
  refine (mulf_apply _ _ (ix2 s o)).trans ?_
  refine congrArg (· * two) ?_
  refine (pb_apply _ _ s o).trans ?_
  refine Finset.sum_congr rfl fun r _ => ?_
  refine congrArg₂ (· * ·) ?_ (pay3_apply b r o)
  refine (xa_apply _ _ s r).trans ?_
  refine Finset.sum_congr rfl fun d _ => ?_
  exact congrArg₂ (· * ·) (shapeCast_1ab_ab_apply v shapeCasts_S1x512x2048_S512x2048 s d) (pay2_apply a r d)

/-- The second half's stored value: the matrix with a leading unit axis added. -/
theorem pay1_apply (w : FVec Ideal S512x2048 .f32) (u : Fin 1) (s : Fin 512) (o : Fin 2048) :
    k0_pay1 (F := Ideal) w (ix3 u s o) = w (ix2 s o) :=
  shapeCast_ab_1ab_apply w shapeCasts_S512x2048_S1x512x2048 u s o

end Cert.KernelIdeal.Half

end
-- ==== Proof.BodyBlock.lean ====
/- What the body leaves in a block, at an index.

   A block is 1024 rows of one batch. The body writes it as two halves of 512 rows: rows 0–511 from rows 0–511 of
   the block of `x` it was given, rows 512–1023 from rows 512–1023, each half the same function (`Half.half`) of its
   rows and of the batch's two factor blocks. So at row `s` and column `o` the block holds
       (∑ r, (∑ d, x[s, d] · a[r, d]) · b[r, o]) · 2
   of the block `x` of the input and the factor blocks `a`, `b`: one function of the block index, of which each of
   the two stores writes its own rows. -/
import proofs.«131016_j67353677136187_2_alg».proof.Proof.Gen.KernelIdeal.Frame
import proofs.«131016_j67353677136187_2_alg».proof.Proof.BodyHalf
import Idealize.ShloMosaic.Lib.Pipeline.Value

set_option maxRecDepth 16384

noncomputable section

open scoped BigOperators

namespace Cert.KernelIdeal.Block

open Cert.KernelIdeal Cert.KernelIdeal.Gen Idealize.ShloMosaic Idealize.ShloMosaic.TcCoe Idealize.ShloMosaic.Tactic
open Idealize.ShloMosaic.ValueIdx
open Idealize.SL Idealize.SL.Sem
open Cert.KernelIdeal.Half (two half)

/-- The block at row `s`, column `o`, from the block of `x` and the two factor blocks. -/
def blockVal (x : Vec Ideal S1x1024x2048 .f32) (a b : Vec Ideal S1x8x2048 .f32) (s : Fin 1024) (o : Fin 2048) : EReal :=
  (∑ r : Fin 8, (∑ d : Fin 2048, x (ix3 (0 : Fin 1) s d) * a (ix3 (0 : Fin 1) r d)) * b (ix3 (0 : Fin 1) r o)) * two

theorem blockVal_congr (x : Vec Ideal S1x1024x2048 .f32) (a b : Vec Ideal S1x8x2048 .f32) {s s' : Fin 1024} {o o' : Fin 2048}
    (hs : s.val = s'.val) (ho : o.val = o'.val) : blockVal x a b s o = blockVal x a b s' o' := by
  obtain rfl := Fin.ext hs; obtain rfl := Fin.ext ho; rfl

/-- The same, as a function of the block's index. -/
def blockFn (x : Vec Ideal S1x1024x2048 .f32) (a b : Vec Ideal S1x8x2048 .f32) : S1x1024x2048.Idx → EReal :=
  fun y => blockVal x a b ⟨(y 1).val, (y 1).isLt⟩ ⟨(y 2).val, (y 2).isLt⟩

/-- A half computed from the 512 rows of the block of `x` that start at row `k` is the block's function on those rows. -/
theorem half_rows (x : Vec Ideal S1x1024x2048 .f32) (a b : Vec Ideal S1x8x2048 .f32) (k : ℕ) (hk : k + 512 ≤ 1024)
    (inb : ∀ ax, (![0, k, 0] : Fin 3 → ℕ) ax + (![1, 512, 2048] : Fin 3 → ℕ) ax ≤ S1x1024x2048.size ax) (s : Fin 512) (o : Fin 2048) :
    half a b (View.ld x (Rect.unit (s := S1x1024x2048) ![0, k, 0] ![1, 512, 2048] inb)) s o = blockVal x a b ⟨k + s.val, by omega⟩ o := by
  unfold half blockVal
  refine congrArg (· * two) (Finset.sum_congr rfl fun r _ => congrArg (· * _) (Finset.sum_congr rfl fun d _ => congrArg (· * _) ?_))
  show x ((Rect.unit (s := S1x1024x2048) ![0, k, 0] ![1, 512, 2048] inb).idx (ix3 (0 : Fin 1) s d)) = x (ix3 (0 : Fin 1) ⟨k + s.val, by omega⟩ d)
  refine congrArg x (funext fun ax => Fin.ext ?_)
  match ax with
  | ⟨0, _⟩ => rfl
  | ⟨1, _⟩ => show k + 1 * s.val = k + s.val; omega
  | ⟨2, _⟩ => show 0 + 1 * d.val = d.val; omega

/-- The store of rows 512–1023 writes the block's function on its rows. -/
theorem store_hi (x : Vec Ideal S1x1024x2048 .f32) (a b : Vec Ideal S1x8x2048 .f32)
    (inb : ∀ ax, (![0, 512, 0] : Fin 3 → ℕ) ax + (![1, 512, 2048] : Fin 3 → ℕ) ax ≤ S1x1024x2048.size ax)
    (y : S1x512x2048.Idx) :
    k0_pay1 (F := Ideal) (k0_pay5 a b (View.ld x (Rect.unit (s := S1x1024x2048) ![0, 512, 0] ![1, 512, 2048] inb))) y
      = blockFn x a b ((Rect.unit (s := S1x1024x2048) ![0, 512, 0] ![1, 512, 2048] inb).emb y) := by
  obtain ⟨u, s, o, rfl⟩ : ∃ (u : Fin 1) (s : Fin 512) (o : Fin 2048), y = ix3 u s o := ⟨y 0, y 1, y 2, eq_ix3 y⟩
  refine (Half.pay1_apply _ u s o).trans ?_
  refine (Half.pay5_apply a b _ s o).trans ?_
  refine (half_rows x a b 512 (by omega) inb s o).trans ?_
  exact blockVal_congr x a b (show 512 + s.val = 512 + 1 * s.val by omega) (show o.val = 0 + 1 * o.val by omega)

/-- The store of rows 0–511 writes the block's function on its rows. -/
theorem store_lo (x : Vec Ideal S1x1024x2048 .f32) (a b : Vec Ideal S1x8x2048 .f32)
    (inb : ∀ ax, (![0, 0, 0] : Fin 3 → ℕ) ax + (![1, 512, 2048] : Fin 3 → ℕ) ax ≤ S1x1024x2048.size ax)
    (y : S1x512x2048.Idx) :
    k0_pay4 (F := Ideal) a b (View.ld x (Rect.unit (s := S1x1024x2048) ![0, 0, 0] ![1, 512, 2048] inb)) y
      = blockFn x a b ((Rect.unit (s := S1x1024x2048) ![0, 0, 0] ![1, 512, 2048] inb).emb y) := by
  obtain ⟨u, s, o, rfl⟩ : ∃ (u : Fin 1) (s : Fin 512) (o : Fin 2048), y = ix3 u s o := ⟨y 0, y 1, y 2, eq_ix3 y⟩
  refine (Half.pay4_apply a b _ u s o).trans ?_
  refine (half_rows x a b 0 (by omega) inb s o).trans ?_
  exact blockVal_congr x a b (show 0 + s.val = 0 + 1 * s.val by omega) (show o.val = 0 + 1 * o.val by omega)

/-- The two stores read back: wherever one of them covers, the buffer holds the block's function. -/
theorem two_stores (x : Vec Ideal S1x1024x2048 .f32) (a b : Vec Ideal S1x8x2048 .f32)
    (inb1 : ∀ ax, (![0, 512, 0] : Fin 3 → ℕ) ax + (![1, 512, 2048] : Fin 3 → ℕ) ax ≤ S1x1024x2048.size ax)
    (inb0 : ∀ ax, (![0, 0, 0] : Fin 3 → ℕ) ax + (![1, 512, 2048] : Fin 3 → ℕ) ax ≤ S1x1024x2048.size ax)
    (y : S1x1024x2048.Idx)
    (hc : ∃ pc ∈ ([⟨Rect.unit (s := S1x1024x2048) ![0, 512, 0] ![1, 512, 2048] inb1,
            k0_pay1 (F := Ideal) (k0_pay5 a b (View.ld x (Rect.unit (s := S1x1024x2048) ![0, 512, 0] ![1, 512, 2048] inb1)))⟩,
          ⟨Rect.unit (s := S1x1024x2048) ![0, 0, 0] ![1, 512, 2048] inb0,
            k0_pay4 (F := Ideal) a b (View.ld x (Rect.unit (s := S1x1024x2048) ![0, 0, 0] ![1, 512, 2048] inb0))⟩] :
          List (View.Piece (Elt Ideal) S1x1024x2048 .f32)), y ∈ pc.1.set) :
    View.canon ([⟨Rect.unit (s := S1x1024x2048) ![0, 512, 0] ![1, 512, 2048] inb1,
            k0_pay1 (F := Ideal) (k0_pay5 a b (View.ld x (Rect.unit (s := S1x1024x2048) ![0, 512, 0] ![1, 512, 2048] inb1)))⟩,
          ⟨Rect.unit (s := S1x1024x2048) ![0, 0, 0] ![1, 512, 2048] inb0,
            k0_pay4 (F := Ideal) a b (View.ld x (Rect.unit (s := S1x1024x2048) ![0, 0, 0] ![1, 512, 2048] inb0))⟩] :
          List (View.Piece (Elt Ideal) S1x1024x2048 .f32)) y = blockFn x a b y := by
  refine View.canon_apply_of_pieces (blockFn x a b) _ ?_ y hc
  intro p hp
  simp only [List.mem_cons, List.not_mem_nil, or_false] at hp
  rcases hp with rfl | rfl
  · exact fun z => store_hi x a b inb1 z
  · exact fun z => store_lo x a b inb0 z

theorem hz3 : (![0, 0, 0] : Fin 3 → Nat) = fun _ => 0 := funext fun a => by fin_cases a <;> rfl

/-- What the body's run leaves in the output's staging buffer is the block's function of the three blocks it read,
    on whatever staging buffers it runs. -/
theorem out_eq (c : Dev nD) (i : grid0.Coords) (arg2 : Memref sig .tc .vmem S1x1024x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x1024x2048 .f32) (harg5 : arg5.IsWhole)
    (x0 : Vec Ideal S1x1024x2048 .f32) (x1 : Vec Ideal S1x8x2048 .f32) (x2 : Vec Ideal S1x8x2048 .f32) (y : S1x1024x2048.Idx) :
    out0_A_3 (F := Ideal) c i arg2 harg2 arg3 harg3 arg4 harg4 arg5 harg5 x0 x1 x2 y = blockFn x0 x1 x2 y := by
  have hc := cover0_A_3 (F := Ideal) c i arg2 harg2 arg3 harg3 arg4 harg4 arg5 harg5 x0 x1 x2 y
  unfold out0_A_3
  rw [View.read_writes_eq_canon _ _ _ (cover0_A_3 c i arg2 harg2 arg3 harg3 arg4 harg4 arg5 harg5 x0 x1 x2)]
  revert hc
  unfold kernelRun0_A
  dsimp only
  sl_unfold_words
  simp only [View.readAt_eq_ld, harg2.read_unread, harg3.read_unread, harg4.read_unread, View.ld_unit_zero (S := S1x8x2048) hz3]
  exact fun hc => two_stores x0 x1 x2 _ _ y hc

end Cert.KernelIdeal.Block

end
-- ==== Proof.LowRank.lean ====
/- The function both programs compute from `x` and the two per-batch factors: a rank-8 update of every row,
       out[b, s, o] = (∑ r, (∑ d, x[b, s, d] · A[b, r, d]) · B[b, r, o]) · two,
   stated index by index over the extended reals. The inner sum is the row's projection on the r-th direction of
   batch `b`; the outer sum spreads the eight projections over the output columns. -/
import Idealize.ShloMosaic.PureOps.Ideal
import Idealize.ShloMosaic.Lib.ValueIdx

noncomputable section

open scoped BigOperators

namespace Cert.LowRank

open Idealize.ShloMosaic Idealize.ShloMosaic.ValueIdx

/-- The shape of `x` and of the result: batch, row, column. -/
abbrev SX : Shape := ⟨3, ![8, 2048, 2048]⟩
/-- The shape of a factor: batch, direction, column. -/
abbrev SAB : Shape := ⟨3, ![8, 8, 2048]⟩

/-- Row `(b, s)` of `x` projected on direction `r` of batch `b`. -/
def proj (x : SX.Idx → EReal) (A : SAB.Idx → EReal) (b : Fin 8) (s : Fin 2048) (r : Fin 8) : EReal :=
  ∑ d : Fin 2048, x (ix3 b s d) * A (ix3 b r d)

/-- The low-rank update at `(b, s, o)`: the eight projections of row `(b, s)` spread by `B`, times `two`. -/
def update (two : EReal) (x : SX.Idx → EReal) (A B : SAB.Idx → EReal) : SX.Idx → EReal :=
  fun j => (∑ r : Fin 8, proj x A (j 0) (j 1) r * B (ix3 (j 0) r (j 2))) * two

theorem update_ix3 (two : EReal) (x : SX.Idx → EReal) (A B : SAB.Idx → EReal) (b : Fin 8) (s o : Fin 2048) :
    update two x A B (ix3 b s o) = (∑ r : Fin 8, proj x A b s r * B (ix3 b r o)) * two := rfl

end Cert.LowRank

end
-- ==== Proof.Blocks.lean ====
/- From the blocks to the whole result.

   The grid has sixteen points: point `t` handles batch `b = t / 2` and rows `1024 · (t mod 2) … + 1023` of it. It
   is given that block of `x` and batch `b`'s block of each factor, and writes back the same block of the result. Since
   a block's value at row `s`, column `o` is `(∑ r, (∑ d, x[s, d] · a[r, d]) · b[r, o]) · 2` of the blocks it was given
   (`Block.out_eq`), and block rows are array rows `1024 · (t mod 2) + s` of batch `b`, what point `t` writes back is
   its block of ONE function of the whole arrays: the low-rank update of `x` by the two factors as the region finds
   them. The sixteen blocks tile the result (row `i` of batch `b` lies in the block of the point with coordinates
   `(b, i / 1024)`), so after the run the result is that function. -/
import proofs.«131016_j67353677136187_2_alg».proof.Proof.Gen.KernelIdeal.Value
import proofs.«131016_j67353677136187_2_alg».proof.Proof.BodyBlock
import proofs.«131016_j67353677136187_2_alg».proof.Proof.LowRank

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.LowRank
open Idealize.ShloMosaic.Pipeline (Dat)
open Cert.KernelIdeal.Half (two)

variable (m : (ℓ : Loc nD τ sig) → Buf (Elt Ideal) ℓ) (ρ : Dev nD → PrngReg)

/-- The result as one function of the arrays the region finds: `x` updated by the two factors. -/
def result (c : Dev nD) : S8x2048x2048.Idx → EReal :=
  update two (V m c main_arg0 : S8x2048x2048.Idx → EReal) (V m c main_call0_v50 : S8x8x2048.Idx → EReal)
    (V m c main_call0_v53 : S8x8x2048.Idx → EReal)

/-- The four index maps over the grid, decided: the block of `x` moves with the result's block, the factors' blocks
    follow its batch alone, and the result's block indices stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 7 ∧ win0_3.index t (1 : Fin 3) ≤ 1 :=
  (by decide +kernel : ∀ t : Fin grid0.N, _)

/-- Every block of the result is some point's. -/
theorem idx_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-! ## The blocks a point is given, read off the arrays -/

/-- The block of `x` at point `t`, at an index of the block, is `x` at the index with the block's offsets added. -/
theorem xblk_apply (c : Dev nD) (t : Fin cfg0.N) (y : S1x1024x2048.Idx) (k : S8x2048x2048.Idx)
    (h0 : (k 0).val = win0_0.index t (0 : Fin 3) * 1 + (y 0).val) (h1 : (k 1).val = win0_0.index t (1 : Fin 3) * 1024 + (y 1).val)
    (h2 : (k 2).val = win0_0.index t (2 : Fin 3) * 2048 + (y 2).val) :
    (iblk m c 0 t : Vec Ideal S1x1024x2048 .f32) y = (V m c main_arg0 : S8x2048x2048.Idx → EReal) k := by
  show V m c main_arg0 (((cfg0.win 0).blk t).view.emb y) = V m c main_arg0 k
  refine congrArg (V m c main_arg0) (funext fun a => Fin.ext ?_)
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 2048 + 1 * (y 2).val = (k 2).val; omega

/-- The same for the first factor's block. -/
theorem ablk_apply (c : Dev nD) (t : Fin cfg0.N) (y : S1x8x2048.Idx) (k : S8x8x2048.Idx)
    (h0 : (k 0).val = win0_1.index t (0 : Fin 3) * 1 + (y 0).val) (h1 : (k 1).val = win0_1.index t (1 : Fin 3) * 8 + (y 1).val)
    (h2 : (k 2).val = win0_1.index t (2 : Fin 3) * 2048 + (y 2).val) :
    (iblk m c 1 t : Vec Ideal S1x8x2048 .f32) y = (V m c main_call0_v50 : S8x8x2048.Idx → EReal) k := by
  show V m c main_call0_v50 (((cfg0.win 1).blk t).view.emb y) = V m c main_call0_v50 k
  refine congrArg (V m c main_call0_v50) (funext fun a => Fin.ext ?_)
  match a with
  | ⟨0, _⟩ => show win0_1.index t (0 : Fin 3) * 1 + 1 * (y 0).val = (k 0).val; omega
  | ⟨1, _⟩ => show win0_1.index t (1 : Fin 3) * 8 + 1 * (y 1).val = (k 1).val; omega
  | ⟨2, _⟩ => show win0_1.index t (2 : Fin 3) * 2048 + 1 * (y 2).val = (k 2).val; omega

/-- The same for the second factor's block. -/
theorem bblk_apply (c : Dev nD) (t : Fin cfg0.N) (y : S1x8x2048.Idx) (k : S8x8x2048.Idx)
    (h0 : (k 0).val = win0_2.index t (0 : Fin 3) * 1 + (y 0).val) (h1 : (k 1).val = win0_2.index t (1 : Fin 3) * 8 + (y 1).val)
    (h2 : (k 2).val = win0_2.index t (2 : Fin 3) * 2048 + (y 2).val) :
    (iblk m c 2 t : Vec Ideal S1x8x2048 .f32) y = (V m c main_call0_v53 : S8x8x2048.Idx → EReal) k := by
  show V m c main_call0_v53 (((cfg0.win 2).blk t).view.emb y) = V m c main_call0_v53 k
  refine congrArg (V m c main_call0_v53) (funext fun a => Fin.ext ?_)
  match a with
  | ⟨0, _⟩ => show win0_2.index t (0 : Fin 3) * 1 + 1 * (y 0).val = (k 0).val; omega
  | ⟨1, _⟩ => show win0_2.index t (1 : Fin 3) * 8 + 1 * (y 1).val = (k 1).val; omega
  | ⟨2, _⟩ => show win0_2.index t (2 : Fin 3) * 2048 + 1 * (y 2).val = (k 2).val; omega

/-! ## What a point writes back -/

/-- What point `t` writes back is its block of `result`. -/
theorem flushed_eq (c : Dev nD) (t : Fin cfg0.N) :
    (dats m 0 c).flushed 3 t = ((cfg0.win 3).blk t).view.read (Elt Ideal) (result m c) := by
  rw [Cert.KernelIdeal.Value.flushed3_A]
  obtain ⟨e00, e01, e02, e10, e11, e12, e20, e21, e22, e32, b0, b1⟩ := idx_facts t
  funext j
  show out0_A_3 c (grid0.coords t) (ms0_0 t) (hs0_0 t) (ms0_1 t) (hs0_1 t) (ms0_2 t) (hs0_2 t) (ms0_3 t) (hs0_3 t) (iblk m c 0 t) (iblk m c 1 t) (iblk m c 2 t) j
      = result m c (((cfg0.win 3).blk t).view.emb j)
  refine (Block.out_eq c (grid0.coords t) (ms0_0 t) (hs0_0 t) (ms0_1 t) (hs0_1 t) (ms0_2 t) (hs0_2 t) (ms0_3 t) (hs0_3 t) (iblk m c 0 t) (iblk m c 1 t) (iblk m c 2 t) j).trans ?_
  have hj0 : (j 0).val < 1 := (j 0).isLt
  have hj1 : (j 1).val < 1024 := (j 1).isLt
  have hj2 : (j 2).val < 2048 := (j 2).isLt
  have k0 : ((((cfg0.win 3).blk t).view.emb j) 0).val = win0_3.index t (0 : Fin 3) * 1 + 1 * (j 0).val := rfl
  have k1 : ((((cfg0.win 3).blk t).view.emb j) 1).val = win0_3.index t (1 : Fin 3) * 1024 + 1 * (j 1).val := rfl
  have k2 : ((((cfg0.win 3).blk t).view.emb j) 2).val = win0_3.index t (2 : Fin 3) * 2048 + 1 * (j 2).val := rfl
  unfold Block.blockFn Block.blockVal result update proj
  refine congrArg (· * two) (Finset.sum_congr rfl fun r _ => congrArg₂ (· * ·) (Finset.sum_congr rfl fun d _ => congrArg₂ (· * ·) ?_ ?_) ?_)
  · exact xblk_apply m c t _ _ (by show _ = _ + (0 : ℕ); rw [k0]; omega) (by show _ = _ + (j 1).val; rw [k1]; omega) (by show d.val = _ + d.val; omega)
  · exact ablk_apply m c t _ _ (by show _ = _ + (0 : ℕ); rw [k0]; omega) (by show r.val = _ + r.val; omega) (by show d.val = _ + d.val; omega)
  · exact bblk_apply m c t _ _ (by show _ = _ + (0 : ℕ); rw [k0]; omega) (by show r.val = _ + r.val; omega) (by show _ = _ + (j 2).val; rw [k2]; omega)

/-! ## The blocks tile the result -/

/-- An index of the result is in point `t`'s block iff each coordinate is in the block's range on its axis. -/
theorem mem_blk (t : Fin cfg0.N) (i : S8x2048x2048.Idx) :
    i ∈ ((cfg0.win 3).blk t).view.set ↔ ∀ a : Fin 3, win0_3.index t a * S1x1024x2048.size a ≤ (i a).val
      ∧ (i a).val < win0_3.index t a * S1x1024x2048.size a + S1x1024x2048.size a := by
  show i ∈ ((View.whole main_v0).slice (win0_3.rect t)).set ↔ _
  rw [View.set_slice_whole, Rect.mem_set_unit]
  exact Iff.rfl

/-- Every index of the result is in the block of a point that writes back. -/
theorem cover (i : S8x2048x2048.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 2048 ≤ (i 2).val ∧ (i 2).val < win0_3.index t (2 : Fin 3) * 2048 + 2048; omega

/-- The result array after the run. -/
theorem final (c : Dev nD) : (dats m 0 c).arrAt 3 cfg0.N = result m c :=
  (dats m 0 c).arrAt_eq_of_cover 3 (result m c) (fun t _ => flushed_eq m c t) (cover)

/-- The run, read: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Blocks

end
-- ==== Proof.Factors.lean ====
/- The two programs compute the same factors.

   Before its region the kernel's program runs, on the host, the routing weights (layer norm, two affine layers with a ReLU,
   a softmax over four experts) and the two products of those weights with `Waᵀ` and `Wbᵀ`, each re-laid as
   `[8, 8, 2048]`; the reference runs the same operations, in the same order, on the same arguments. So what the
   region finds in its two factor arrays is, as a function of the arguments, what the reference's run names its two
   re-laid products. The chain is carried whole: nothing here opens the layer norm or the softmax; each operation of
   one program is matched with the same operation of the other. -/
import proofs.«131016_j67353677136187_2_alg».proof.Proof.Gen.KernelIdeal.Frame
import proofs.«131016_j67353677136187_2_alg».proof.Proof.Gen.ReferenceIdeal.Read
import Idealize.ShloMosaic.Lib.StableHlo.Run

noncomputable section

namespace Cert.Factors

open Idealize.ShloMosaic Idealize.ShloMosaic.TcCoe Idealize.SL.Sem Idealize.ShloMosaic.StableHlo

set_option maxHeartbeats 2000000 in
/-- The first factor as the region finds it is the reference's first re-laid product of the same arguments. -/
theorem factorA (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_call0_v50 : Cert.KernelIdeal.S8x8x2048.Idx → EReal)
      = Cert.ReferenceIdeal.Read.val_main_v50 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  dsimp only [Cert.KernelIdeal.Gen.V, Cert.KernelIdeal.Gen.hostOps0]
  after_results_simp
  rfl

set_option maxHeartbeats 2000000 in
/-- The second factor as the region finds it is the reference's second re-laid product of the same arguments. -/
theorem factorB (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_call0_v53 : Cert.KernelIdeal.S8x8x2048.Idx → EReal)
      = Cert.ReferenceIdeal.Read.val_main_v53 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) := by
  dsimp only [Cert.KernelIdeal.Gen.V, Cert.KernelIdeal.Gen.hostOps0]
  after_results_simp
  rfl

end Cert.Factors

end
-- ==== Proof.RefIsLowRank.lean ====
/- The reference's result is the low-rank update of `x` by the two factors it computes.

   Its last five operations contract `x` with the first factor over the columns (`[b, s, r]`), contract that with the
   second factor over the eight directions (`[b, s, o]`), and double the result. Read at an index over the extended
   reals each contraction is the plain sum over its contracted axis, so the result is `update 2 x A B` with `A`, `B`
   the reference's own factors (its operations up to the two re-layings), whatever those are. -/
import proofs.«131016_j67353677136187_2_alg».proof.Proof.Gen.ReferenceIdeal.Read
import proofs.«131016_j67353677136187_2_alg».proof.Proof.LowRank

noncomputable section

open scoped BigOperators

namespace Cert.RefLowRank

open Cert.ReferenceIdeal Cert.ReferenceIdeal.Read Idealize.ShloMosaic Idealize.ShloMosaic.ValueIdx Cert.LowRank

/-- The doubling factor, 2.0 as the extended real its pattern denotes. -/
abbrev two : EReal := Ideal.ofBits .f32 0x40000000#32

/-! ## Where the two contractions read their operands, by coordinates -/

theorem lidx55 (b : Fin 8) (s o : Fin 2048) (r : Fin 8) : lidx_main_v55 (ix3 b s o) r = ix3 b s r :=
  funext fun a => Fin.ext (by match a with | ⟨0, _⟩ => rfl | ⟨1, _⟩ => rfl | ⟨2, _⟩ => rfl)
theorem ridx55 (b : Fin 8) (s o : Fin 2048) (r : Fin 8) : ridx_main_v55 (ix3 b s o) r = ix3 b r o :=
  funext fun a => Fin.ext (by match a with | ⟨0, _⟩ => rfl | ⟨1, _⟩ => rfl | ⟨2, _⟩ => rfl)
theorem lidx54 (b : Fin 8) (s : Fin 2048) (r : Fin 8) (d : Fin 2048) : lidx_main_v54 (ix3 b s r) d = ix3 b s d :=
  funext fun a => Fin.ext (by match a with | ⟨0, _⟩ => rfl | ⟨1, _⟩ => rfl | ⟨2, _⟩ => rfl)
theorem ridx54 (b : Fin 8) (s : Fin 2048) (r : Fin 8) (d : Fin 2048) : ridx_main_v54 (ix3 b s r) d = ix3 b r d :=
  funext fun a => Fin.ext (by match a with | ⟨0, _⟩ => rfl | ⟨1, _⟩ => rfl | ⟨2, _⟩ => rfl)

/-- The reference's result, as a function of its ten arguments, is the update of `x` by its two factors. -/
theorem result_eq (x0 : (⟨S8x2048x2048, .f32⟩ : BufTy).Contents (Elt Ideal)) (x1 : (⟨S8x32, .f32⟩ : BufTy).Contents (Elt Ideal))
    (x2 x3 : (⟨S32, .f32⟩ : BufTy).Contents (Elt Ideal)) (x4 : (⟨S60x32, .f32⟩ : BufTy).Contents (Elt Ideal))
    (x5 : (⟨S60, .f32⟩ : BufTy).Contents (Elt Ideal)) (x6 : (⟨S4x60, .f32⟩ : BufTy).Contents (Elt Ideal))
    (x7 : (⟨S4, .f32⟩ : BufTy).Contents (Elt Ideal)) (x8 x9 : (⟨S16384x4, .f32⟩ : BufTy).Contents (Elt Ideal)) :
    val_main_v57 (F := Ideal) x0 x1 x2 x3 x4 x5 x6 x7 x8 x9
      = update two x0 (val_main_v50 (F := Ideal) x1 x2 x3 x4 x5 x6 x7 x8) (val_main_v53 (F := Ideal) x1 x2 x3 x4 x5 x6 x7 x9) := by
  funext i
  obtain ⟨b, s, o, rfl⟩ : ∃ (b : Fin 8) (s o : Fin 2048), i = ix3 b s o := ⟨i 0, i 1, i 2, eq_ix3 i⟩
  rw [val_main_v57_apply, val_main_v55_apply, val_main_v56_apply, val_main_cst_8_apply, update_ix3]
  refine congrArg (· * two) ?_
  refine Finset.sum_congr rfl fun r _ => ?_
  rw [lidx55, ridx55, val_main_v54_apply]
  refine congrArg (· * _) ?_
  refine Finset.sum_congr rfl fun d _ => ?_
  rw [lidx54, ridx54]

end Cert.RefLowRank

end
-- ==== Proof.Claims.lean ====
/- The five claims.

   The frames: the two kernel programs' are generated whole; the reference's is its generated run with the result
   dropped. `preserves` is `True`: the idealization rewrote no operation. `algebraic`: the kernel's run ends with
   the result array at the low-rank update of `x` by the two factors the region finds (`Blocks.run`); those factors are
   the reference's own, as functions of the arguments (`Factors`), and the reference's result is the same update of
   `x` by its factors (`RefLowRank.result_eq`); the two programs start from memories that agree on the arguments. -/
import proofs.«131016_j67353677136187_2_alg».proof.Defs
import proofs.«131016_j67353677136187_2_alg».proof.Proof.Gen.Pre_finite_inputs
import proofs.«131016_j67353677136187_2_alg».proof.Proof.Gen.ReferenceIdeal
import proofs.«131016_j67353677136187_2_alg».proof.Proof.Gen.Kernel.Frame
import proofs.«131016_j67353677136187_2_alg».proof.Proof.Gen.KernelIdeal.Frame
import proofs.«131016_j67353677136187_2_alg».proof.Proof.Gen.ReferenceIdeal.Run
import proofs.«131016_j67353677136187_2_alg».proof.Proof.Gen.ReferenceIdeal.Read
import proofs.«131016_j67353677136187_2_alg».proof.Proof.Blocks
import proofs.«131016_j67353677136187_2_alg».proof.Proof.Factors
import proofs.«131016_j67353677136187_2_alg».proof.Proof.RefIsLowRank

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's result over the arguments: `x` as launched (no host operation writes it), the two factors the
    reference's re-laid products of the other arguments. -/
theorem kernel_result (m : (ℓ : Loc Cert.KernelIdeal.nD Cert.KernelIdeal.τ Cert.KernelIdeal.sig) → Buf (Elt Ideal) ℓ) (c : Dev Cert.KernelIdeal.nD) :
    Cert.KernelIdeal.Blocks.result m c
      = Cert.LowRank.update Cert.RefLowRank.two (m ((c.tc : Thread Cert.KernelIdeal.nD Cert.KernelIdeal.τ).loc Cert.KernelIdeal.main_arg0))
          (Cert.ReferenceIdeal.Read.val_main_v50 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
          (Cert.ReferenceIdeal.Read.val_main_v53 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9))) := by
  unfold Cert.KernelIdeal.Blocks.result
  rw [Cert.Factors.factorA m c, Cert.Factors.factorB m c, Cert.KernelIdeal.Gen.V_main_arg0 m c]

/-- Both programs, from memories agreeing on the arguments, end with the same result array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v57 m' c = Cert.KernelIdeal.Blocks.result m c
  obtain ⟨h0, h1, h2, h3, h4, h5, h6, h7, h8, h9⟩ := hagree c
  rw [Cert.ReferenceIdeal.Read.val_main_v57_eq, Cert.RefLowRank.result_eq, kernel_result m c,
    h0, h1, h2, h3, h4, h5, h6, h7, h8, h9]

end Cert.Proof.Claims

end
-- ==== Proof.lean ====
/- The certificate of a low-rank update whose two factors are mixed per batch row.

   Both programs first compute, on the host and by the same chain of operations, routing weights per batch row
   (layer norm of the control vector, two affine layers with a ReLU between them, a softmax) and from it two
   per-batch factors `A, B : [8, 8, 2048]` (the routing weights times `Waᵀ` resp. `Wbᵀ`, re-laid as eight rows of 2048).
   The result is then
       out[b, s, o] = (∑ r, (∑ d, x[b, s, d] · A[b, r, d]) · B[b, r, o]) · 2
   — the kernel computes it block by block (a block is 1024 rows `s` of one batch `b`, produced as two halves of
   512 rows, each by two matrix products into zero accumulators), the reference by two batched contractions over
   the whole arrays. Over the extended reals a change of float format is the identity and a matrix product is the
   plain sum over its contracted axis, so the two sides are the same nested sum, index by index: no algebraic law
   is needed beyond reading both sides at an index, and the inputs' finiteness is never used.

   `Proof/LowRank.lean` states that function; `Proof/RefIsLowRank.lean` reads the reference's last operations at an
   index; `Proof/LibMatmul.lean`, `Proof/BodyHalf.lean` and `Proof/BodyBlock.lean` read what the kernel's body stores
   at an index of its block; `Proof/Blocks.lean` passes from the blocks to the whole array; `Proof/Factors.lean`
   identifies the two programs' host chains; `Proof/Claims.lean` assembles the five claims, cited here behind the
   witnesses of the programs' stated facts. -/
import proofs.«131016_j67353677136187_2_alg».proof.Defs
import proofs.«131016_j67353677136187_2_alg».proof.Proof.Gen.Kernel
import proofs.«131016_j67353677136187_2_alg».proof.Proof.Gen.KernelIdeal
import proofs.«131016_j67353677136187_2_alg».proof.Proof.Gen.ReferenceIdeal
import proofs.«131016_j67353677136187_2_alg».proof.Proof.Gen.Pre_finite_inputs
import proofs.«131016_j67353677136187_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
